-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_arg6 : FVec F S128 .f32) (main_arg7 : FVec F S128 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S256x128 .f32) (main_arg3 : FVec F S128 .f32) (main_arg4 : FVec F S128x1 .f32) (main_arg5 : FVec F S1 .f32) (main_arg6 : FVec F S128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S128x128 : Shape := ⟨2, ![128, 128]⟩
abbrev S10000x128 : Shape := ⟨2, ![10000, 128]⟩
abbrev S1x128 : Shape := ⟨2, ![1, 128]⟩
abbrev S10000x1 : Shape := ⟨2, ![10000, 1]⟩
abbrev S1x1 : Shape := ⟨2, ![1, 1]⟩
abbrev S5000x128 : Shape := ⟨2, ![5000, 128]⟩
abbrev S5000 : Shape := ⟨1, ![5000]⟩
abbrev S5000x1 : Shape := ⟨2, ![5000, 1]⟩

abbrev nBuf : Space → Nat
  | .hbm => 38
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S128x128, .f32⟩
  | .hbm, ⟨31, _⟩ => ⟨S128x128, .f32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S128x1, .f32⟩
  | .local _ .vmem, ⟨8, _⟩ => ⟨S1, .f32⟩
  | .local _ .vmem, ⟨9, _⟩ => ⟨S10000x128, .f32⟩
  | .local _ .vmem, ⟨10, _⟩ => ⟨S10000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128, .f32⟩
  | .local _ .vmem, ⟨16, _⟩ => ⟨S128, .f32⟩
  | .local _ .vmem, ⟨17, _⟩ => ⟨S5000x128, .f32⟩
  | .local _ .vmem, ⟨18, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S256x128_S128x128_0_0 : S256x128.Slices ![0, 0] S128x128
  slices_S256x128_S128x128_128_0 : S256x128.Slices ![128, 0] S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  broadcasts_S10000x1_S10000x128 : S10000x1.Broadcasts S10000x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S800000x128.size a
  hwx0_0 : ∀ i : grid0.Coords, EltTy.bits .f32 = 32 ∨ (Rect.block (s := S800000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S800000x128.size a
  hwx0_1 : ∀ i : grid0.Coords, EltTy.bits .f32 = 32 ∨ (Rect.block (s := S800000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x128.size a ≤ S800000x128.size a
  hwx0_7 : ∀ i : grid0.Coords, EltTy.bits .f32 = 32 ∨ (Rect.block (s := S800000x128) S10000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_v10) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S10000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩
abbrev S1x1 : Shape := ⟨2, ![1, 1]⟩
abbrev S50000 : Shape := ⟨1, ![50000]⟩
abbrev S50000x1 : Shape := ⟨2, ![50000, 1]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S800000x256, .f32⟩
  | .hbm, ⟨31, _⟩ => ⟨S800000x128, .f32⟩
  | .hbm, ⟨32, _⟩ => ⟨S1x128, .f32⟩
  | .hbm, ⟨33, _⟩ => ⟨S800000x128, .f32⟩
  | .hbm, ⟨34, _⟩ => ⟨S800000x128, .f32⟩
  | .hbm, ⟨35, _⟩ => ⟨S_, .f32⟩
  | .hbm, ⟨36, _⟩ => ⟨S800000x128, .f32⟩
  | .hbm, ⟨37, _⟩ => ⟨S800000x128, .f32⟩
  | .hbm, ⟨38, _⟩ => ⟨S800000x1, .f32⟩
  | .hbm, ⟨39, _⟩ => ⟨S1x1, .f32⟩
  | .hbm, ⟨40, _⟩ => ⟨S800000x1, .f32⟩
  | .hbm, ⟨41, _⟩ => ⟨S800000x1, .f32⟩
  | .hbm, ⟨42, _⟩ => ⟨S800000x1, .f32⟩
  | .hbm, ⟨43, _⟩ => ⟨S800000x1, .f32⟩
  | .hbm, ⟨44, _⟩ => ⟨S_, .f32⟩
  | .hbm, ⟨45, _⟩ => ⟨S800000x1, .f32⟩
  | .hbm, ⟨46, _⟩ => ⟨S800000x1, .f32⟩
  | .hbm, ⟨47, _⟩ => ⟨S_, .f32⟩
  | .hbm, ⟨48, _⟩ => ⟨S800000x1, .f32⟩
  | .hbm, ⟨49, _⟩ => ⟨S800000x1, .f32⟩
  | .hbm, ⟨50, _⟩ => ⟨S800000, .f32⟩
  | .hbm, ⟨51, _⟩ => ⟨S800000x1, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S800000x128, .f32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000, .f32⟩
  | .hbm, ⟨70, _⟩ => ⟨S50000x1, .f32⟩
  | .hbm, ⟨71, _⟩ => ⟨S_, .f32⟩
  | .hbm, ⟨72, _⟩ => ⟨S50000x1, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000, .f32⟩
  | .hbm, ⟨79, _⟩ => ⟨S50000x1, .f32⟩
  | .hbm, ⟨80, _⟩ => ⟨S_, .f32⟩
  | .hbm, ⟨81, _⟩ => ⟨S50000x1, .f32⟩
  | .hbm, ⟨82, _⟩ => ⟨S50000x1, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x1, .f32⟩
  | .hbm, ⟨87, _⟩ => ⟨S50000x1, .f32⟩
  | .hbm, ⟨88, _⟩ => ⟨S50000x1, .f32⟩
  | .hbm, ⟨89, _⟩ => ⟨S50000x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  shapeCasts_S800000x1_S800000 : S800000x1.ShapeCasts S800000
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x1_S800000x1_1_0_0_1_n_n_wf : DotDims.WF S800000x128 S128x1 S800000x1 [1] [0] [0] [1] [] []
  scatter_S50000x128_S800000x1_S800000x128_1_0_0_1_wf : ScatterDims.WF S50000x128 S800000x1 S800000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The idealized kernel's run with its result named.

  The program is four segments: host operations, the edge-gate region, host operations (the scatter-add), the
  normalisation region. The buffer contents at each boundary are a fold from the launch memory; the run below
  states that every weakly fair execution terminates with the result array at the last boundary's contents
  and the eight argument arrays as launched.
-/
import proofs.«124537_j18863496364647_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the contents the last
    boundary's fold gives it and every argument array as launched. -/
theorem run_result : θ_run defs (onTc (τ := τ) (main (F := F))) ⟨m, fun _ => 0, ρ⟩ (fun r => ∀ c : Dev nD,
      r.2.mem ((c.tc : Thread nD τ).loc main_v24) = W4 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v24 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Whole

end
-- ==== Proof.HostReads.lean ====
/-
  The host operations of the idealized kernel, read back.

  Before the edge-gate region the host takes the two rows of the edge list, wraps negative node numbers
  around, gathers the source rows and the target rows of `x`, and cuts the first layer's weights into their two
  halves. Between the regions it scatter-adds the edge messages into a zero array at the raw target numbers.
  Each buffer a region reads is stated here as that term of the launch contents.
-/
import proofs.«124537_j18863496364647_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL.Sem Idealize.ShloMosaic.StableHlo
open Idealize.ShloMosaic.Pipeline (Dat)

variable {F : FTy → Type} [FloatOps F]

/-- The edge list's first row: the source node of every edge. -/
def srcNodes (x1 : (⟨S2x800000, .i32⟩ : BufTy).Contents (Elt F)) : (⟨S800000, .i32⟩ : BufTy).Contents (Elt F) :=
  shapeCast _ (extractStridedSlice S1x800000 ![0, 0] x1 slices_S2x800000_S1x800000_0_0) shapeCasts_S1x800000_S800000

/-- The edge list's second row: the target node of every edge. -/
def tgtNodes (x1 : (⟨S2x800000, .i32⟩ : BufTy).Contents (Elt F)) : (⟨S800000, .i32⟩ : BufTy).Contents (Elt F) :=
  shapeCast _ (extractStridedSlice S1x800000 ![1, 0] x1 slices_S2x800000_S1x800000_1_0) shapeCasts_S1x800000_S800000

/-- Node numbers as a column of gather start indices, a negative number wrapped around by adding 50000. -/
def wrapped (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The rows of `x` at the given node numbers. -/
def rowsAt (x0 : (⟨S50000x128, .f32⟩ : BufTy).Contents (Elt F)) (s : (⟨S800000, .i32⟩ : BufTy).Contents (Elt F)) :
    (⟨S800000x128, .f32⟩ : BufTy).Contents (Elt F) :=
  Host.gather gather_S50000x128_S800000x1_S800000x128_1_0_n_n_0_1_1128 x0 (wrapped s)

/-- The messages summed into their target nodes, from a zero array. -/
def summedAt (s : (⟨S800000, .i32⟩ : BufTy).Contents (Elt F)) (u : (⟨S800000x128, .f32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 s) u

variable (m : (ℓ : Loc nD τ sig) → Buf (Elt F) ℓ) (ρ : Dev nD → PrngReg)

/-! ## What the edge-gate region finds -/

theorem entry0_src (c : Dev nD) :
    V1 m ρ c main_v10 = rowsAt (m ((c : Thread nD τ).loc main_arg0)) (srcNodes (m ((c : Thread nD τ).loc main_arg1))) := by
  show StableHlo.after hostOps0 (W0 m ρ c) (Proc.devRef .tc main_v10) = _
  after_results <;> rfl

theorem entry0_tgt (c : Dev nD) :
    V1 m ρ c main_v17 = rowsAt (m ((c : Thread nD τ).loc main_arg0)) (tgtNodes (m ((c : Thread nD τ).loc main_arg1))) := by
  show StableHlo.after hostOps0 (W0 m ρ c) (Proc.devRef .tc main_v17) = _
  after_results <;> rfl

theorem entry0_wa (c : Dev nD) :
    V1 m ρ c main_v18 = extractStridedSlice S128x128 ![0, 0] (m ((c : Thread nD τ).loc main_arg2)) slices_S256x128_S128x128_0_0 := by
  show StableHlo.after hostOps0 (W0 m ρ c) (Proc.devRef .tc main_v18) = _
  after_results <;> rfl

theorem entry0_wb (c : Dev nD) :
    V1 m ρ c main_v19 = extractStridedSlice S128x128 ![128, 0] (m ((c : Thread nD τ).loc main_arg2)) slices_S256x128_S128x128_128_0 := by
  show StableHlo.after hostOps0 (W0 m ρ c) (Proc.devRef .tc main_v19) = _
  after_results <;> rfl

theorem entry0_b1 (c : Dev nD) : V1 m ρ c main_arg3 = m ((c : Thread nD τ).loc main_arg3) := by
  show StableHlo.after hostOps0 (W0 m ρ c) (Proc.devRef .tc main_arg3) = _
  after_results <;> rfl

theorem entry0_w2 (c : Dev nD) : V1 m ρ c main_arg4 = m ((c : Thread nD τ).loc main_arg4) := by
  show StableHlo.after hostOps0 (W0 m ρ c) (Proc.devRef .tc main_arg4) = _
  after_results <;> rfl

theorem entry0_b2 (c : Dev nD) : V1 m ρ c main_arg5 = m ((c : Thread nD τ).loc main_arg5) := by
  show StableHlo.after hostOps0 (W0 m ρ c) (Proc.devRef .tc main_arg5) = _
  after_results <;> rfl

/-! ## What the normalisation region finds -/

/-- A buffer no operation between the regions writes and the edge-gate region does not stage holds after them
    what the first stretch of host operations left in it. -/
theorem entry1_of_entry0 (c : Dev nD) (b : Ref sig .tc) (h1 : StableHlo.after hostOps1 (W2 m ρ c) (Proc.devRef .tc b) = W2 m ρ c (Proc.devRef .tc b))
    (hb : ∀ w, Pipeline.arrRef spec0 w ≠ b) : V3 m ρ c b = V1 m ρ c b :=
  h1.trans (W2_of_ne m ρ c b hb)

theorem entry1_x (c : Dev nD) : V3 m ρ c main_arg0 = m ((c : Thread nD τ).loc main_arg0) := by
  refine (entry1_of_entry0 m ρ c main_arg0 (by after_results) (by decide)).trans ?_
  show StableHlo.after hostOps0 (W0 m ρ c) (Proc.devRef .tc main_arg0) = _
  after_results <;> rfl

theorem entry1_gamma (c : Dev nD) : V3 m ρ c main_arg6 = m ((c : Thread nD τ).loc main_arg6) := by
  refine (entry1_of_entry0 m ρ c main_arg6 (by after_results) (by decide)).trans ?_
  show StableHlo.after hostOps0 (W0 m ρ c) (Proc.devRef .tc main_arg6) = _
  after_results <;> rfl

theorem entry1_beta (c : Dev nD) : V3 m ρ c main_arg7 = m ((c : Thread nD τ).loc main_arg7) := by
  refine (entry1_of_entry0 m ρ c main_arg7 (by after_results) (by decide)).trans ?_
  show StableHlo.after hostOps0 (W0 m ρ c) (Proc.devRef .tc main_arg7) = _
  after_results <;> rfl

theorem entry1_agg (c : Dev nD) :
    V3 m ρ c main_v23 = summedAt (tgtNodes (m ((c : Thread nD τ).loc main_arg1))) ((dat0 (V1 m ρ) c).arrAt 7 cfg0.N) := by
  have h3 : W2 m ρ c (Proc.devRef .tc main_v3) = tgtNodes (m ((c : Thread nD τ).loc main_arg1)) := by
    refine (W2_of_ne m ρ c main_v3 (by decide)).trans ?_
    show StableHlo.after hostOps0 (W0 m ρ c) (Proc.devRef .tc main_v3) = _
    after_results <;> rfl
  have h20 : W2 m ρ c (Proc.devRef .tc main_v20) = (dat0 (V1 m ρ) c).arrAt 7 cfg0.N := W2_arr m ρ c 7
  show StableHlo.after hostOps1 (W2 m ρ c) (Proc.devRef .tc main_v23) = _
  after_results
  rw [h3, h20]
  rfl

/-- The result array after the run is what the normalisation region's write-backs leave. -/
theorem result_eq (c : Dev nD) : W4 m ρ c (Proc.devRef .tc main_v24) = (dat1 (V3 m ρ) c).arrAt 4 cfg1.N :=
  W4_arr m ρ c 4

end Cert.KernelIdeal.Whole

end
-- ==== Proof.Spec.lean ====
/-
  The mathematics both programs compute, index by index over the extended reals.

  Edges: for edge `e` with gathered source row `xs e` and target row `xt e`, the hidden vector is
  `h e j = max (Σ_k xs e k · W1[k, j] + Σ_k xt e k · W1[128 + k, j] + b1 j) 0`, the gate is
  `g e = logistic (Σ_j h e j · W2[j, 0] + b2 0)`, and the message is `g e · xs e c`.
  Nodes: a row `r` of `x + agg` is centred by its mean over the 128 features, scaled by the reciprocal square
  root of its variance plus ε, then by `γ` and shifted by `β`.
  One law joins the two programs: a sum over 256 contraction indices is the sum over the lower 128 plus the
  sum over the upper 128 (`sum_lower_upper`); it holds in any commutative monoid, so no finiteness is used.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- Edge rows by features. -/
abbrev SEdge : Shape := ⟨2, ![800000, 128]⟩
/-- Node rows by features. -/
abbrev SNode : Shape := ⟨2, ![50000, 128]⟩
/-- The first layer's weights, source rows above target rows. -/
abbrev SW1 : Shape := ⟨2, ![256, 128]⟩
/-- Either half of the first layer's weights. -/
abbrev SHalf : Shape := ⟨2, ![128, 128]⟩
/-- The second layer's weights. -/
abbrev SW2 : Shape := ⟨2, ![128, 1]⟩
/-- A feature vector. -/
abbrev SFeat : Shape := ⟨1, ![128]⟩
/-- One number. -/
abbrev SOne : Shape := ⟨1, ![1]⟩

/-- Row `k` of the first (source) half of the first layer's weights, as a row of the whole matrix. -/
abbrev lower (k : Fin 128) : Fin 256 := ⟨k.val, by omega⟩
/-- Row `k` of the second (target) half of the first layer's weights, as a row of the whole matrix. -/
abbrev upper (k : Fin 128) : Fin 256 := ⟨128 + k.val, by omega⟩

/-- A sum over 256 indices is the sum over the first 128 plus the sum over the last 128. -/
theorem sum_lower_upper {M : Type*} [AddCommMonoid M] (f : Fin 256 → M) :
    ∑ q : Fin 256, f q = ∑ k : Fin 128, f (lower k) + ∑ k : Fin 128, f (upper k) :=
  Fin.sum_univ_add (a := 128) (b := 128) f

/-- The hidden unit `j` of edge `e`, the first layer's weights given as their two halves. -/
def hiddenHalves (xs xt : SEdge.Idx → EReal) (wa wb : SHalf.Idx → EReal) (b1 : SFeat.Idx → EReal)
    (e : Fin 800000) (j : Fin 128) : EReal :=
  max ((∑ k : Fin 128, xs (ix2 e k) * wa (ix2 k j)) + (∑ k : Fin 128, xt (ix2 e k) * wb (ix2 k j)) + b1 (ix1 j))
    (Ideal.ofBits .f32 0x00000000#32)

/-- The gate of edge `e`: the logistic function of the second layer applied to the hidden vector. -/
def gateHalves (xs xt : SEdge.Idx → EReal) (wa wb : SHalf.Idx → EReal) (b1 : SFeat.Idx → EReal)
    (w2 : SW2.Idx → EReal) (b2 : SOne.Idx → EReal) (e : Fin 800000) : EReal :=
  Ideal.logistic ((∑ j : Fin 128, hiddenHalves xs xt wa wb b1 e j * w2 (ix2 j (0 : Fin 1))) + b2 (ix1 (0 : Fin 1)))

/-- The message along each edge: the gate times the source row. -/
def edgeHalves (xs xt : SEdge.Idx → EReal) (wa wb : SHalf.Idx → EReal) (b1 : SFeat.Idx → EReal)
    (w2 : SW2.Idx → EReal) (b2 : SOne.Idx → EReal) : SEdge.Idx → EReal :=
  fun i => gateHalves xs xt wa wb b1 w2 b2 (i 0) * xs i

/-- The first (source) half of the first layer's weights. -/
def w1Lower (w1 : SW1.Idx → EReal) : SHalf.Idx → EReal := fun i => w1 (ix2 (lower (i 0)) (i 1))
/-- The second (target) half of the first layer's weights. -/
def w1Upper (w1 : SW1.Idx → EReal) : SHalf.Idx → EReal := fun i => w1 (ix2 (upper (i 0)) (i 1))

/-- The message along each edge, from the whole first-layer weight matrix. -/
def edgeMsg (xs xt : SEdge.Idx → EReal) (w1 : SW1.Idx → EReal) (b1 : SFeat.Idx → EReal)
    (w2 : SW2.Idx → EReal) (b2 : SOne.Idx → EReal) : SEdge.Idx → EReal :=
  edgeHalves xs xt (w1Lower w1) (w1Upper w1) b1 w2 b2

/-- Feature `k` of node `r` after aggregation. -/
def attended (x agg : SNode.Idx → EReal) (r : Fin 50000) (k : Fin 128) : EReal := x (ix2 r k) + agg (ix2 r k)

/-- The mean of a node's 128 features. -/
def rowMean (x agg : SNode.Idx → EReal) (r : Fin 50000) : EReal :=
  Ideal.div (∑ k : Fin 128, attended x agg r k) (Ideal.ofBits .f32 0x43000000#32)

/-- A feature's deviation from its node's mean. -/
def centred (x agg : SNode.Idx → EReal) (r : Fin 50000) (k : Fin 128) : EReal := attended x agg r k - rowMean x agg r

/-- The variance of a node's 128 features. -/
def rowVar (x agg : SNode.Idx → EReal) (r : Fin 50000) : EReal :=
  Ideal.div (∑ k : Fin 128, centred x agg r k * centred x agg r k) (Ideal.ofBits .f32 0x43000000#32)

/-- Layer normalisation of `x + agg` over the features, with scale `γ` and shift `β`. -/
def layerNorm (x agg : SNode.Idx → EReal) (γ β : SFeat.Idx → EReal) : SNode.Idx → EReal :=
  fun i => centred x agg (i 0) (i 1) * Ideal.rsqrt (rowVar x agg (i 0) + Ideal.ofBits .f32 0x3727C5AC#32) * γ (ix1 (i 1)) + β (ix1 (i 1))

end Cert.Spec

end
-- ==== Proof.Shared.lean ====
/-
  The two programs share their host arithmetic on the edge list.

  Both gather the source and the target rows of `x` at the wrapped node numbers, and both scatter-add the
  edge messages into a zero array at the raw target numbers: the same operations on the same operands, so the
  terms are equal by definition. The kernel's two slices of the first layer's weights are the two halves the
  reference's 256-long contraction splits into.
-/
import proofs.«124537_j18863496364647_1_alg».proof.Proof.HostReads
import proofs.«124537_j18863496364647_1_alg».proof.Proof.Gen.ReferenceIdeal.Read
import proofs.«124537_j18863496364647_1_alg».proof.Proof.Spec
import Idealize.ShloMosaic.Lib.Pipeline.Value

noncomputable section

namespace Cert.Shared

open Idealize.ShloMosaic Idealize.ShloMosaic.ValueIdx

variable (x0 : (⟨Cert.KernelIdeal.S50000x128, .f32⟩ : BufTy).Contents (Elt Ideal))
  (x1 : (⟨Cert.KernelIdeal.S2x800000, .i32⟩ : BufTy).Contents (Elt Ideal))
  (x2 : (⟨Cert.KernelIdeal.S256x128, .f32⟩ : BufTy).Contents (Elt Ideal))

/-- The kernel's gathered source rows are the reference's. -/
theorem src_rows :
    Cert.KernelIdeal.Whole.rowsAt (F := Ideal) x0 (Cert.KernelIdeal.Whole.srcNodes x1)
      = Cert.ReferenceIdeal.Read.val_main_v10 (F := Ideal) x0 x1 := rfl

/-- The kernel's gathered target rows are the reference's. -/
theorem tgt_rows :
    Cert.KernelIdeal.Whole.rowsAt (F := Ideal) x0 (Cert.KernelIdeal.Whole.tgtNodes x1)
      = Cert.ReferenceIdeal.Read.val_main_v17 (F := Ideal) x0 x1 := rfl

/-- The kernel's scatter-add of any messages is the reference's scatter-add of them. -/
theorem summed (u : (⟨Cert.KernelIdeal.S800000x128, .f32⟩ : BufTy).Contents (Elt Ideal)) :
    Cert.KernelIdeal.Whole.summedAt (F := Ideal) (Cert.KernelIdeal.Whole.tgtNodes x1) u
      = Host.scatterAdd (F := Ideal) (φ := .f32) Cert.ReferenceIdeal.scatter_S50000x128_S800000x1_S800000x128_1_0_0_1
          (Cert.ReferenceIdeal.Read.val_main_v45 (F := Ideal)) (Cert.ReferenceIdeal.Read.val_main_v46 (F := Ideal) x1) u := rfl

/-- Rows 0 to 127 of the first layer's weights. -/
theorem first_half :
    extractStridedSlice Cert.KernelIdeal.S128x128 ![0, 0] x2 Cert.KernelIdeal.Facts₀.slices_S256x128_S128x128_0_0
      = Cert.Spec.w1Lower x2 := by
  funext i
  exact extractStridedSlice_apply ![0, 0] x2 _ i (ix2 (Cert.Spec.lower (i 0)) (i 1)) (fun a => match a with
    | ⟨0, _⟩ => by show (i 0).val = 0 + (i 0).val; omega
    | ⟨1, _⟩ => by show (i 1).val = 0 + (i 1).val; omega)

/-- Rows 128 to 255 of the first layer's weights. -/
theorem second_half :
    extractStridedSlice Cert.KernelIdeal.S128x128 ![128, 0] x2 Cert.KernelIdeal.Facts₀.slices_S256x128_S128x128_128_0
      = Cert.Spec.w1Upper x2 := by
  funext i
  exact extractStridedSlice_apply ![128, 0] x2 _ i (ix2 (Cert.Spec.upper (i 0)) (i 1)) (fun a => match a with
    | ⟨0, _⟩ => by show 128 + (i 0).val = 128 + (i 0).val; rfl
    | ⟨1, _⟩ => by show (i 1).val = 0 + (i 1).val; omega)

end Cert.Shared

end
-- ==== Proof.NormBlocks.lean ====
/-
  The second kernel call of the layer: layer normalisation of `x + agg`, run block by block.

  The node array has 50000 rows of 128 features and is cut into 10 blocks of 5000 rows; grid point `t` reads block `t`
  of `x` and of `agg`, the whole scale and shift vectors, and writes block `t` of the result. Inside a block, entry
  `(p, q)` depends on all of row `p` of the two input blocks (the mean and the variance are sums over the row's 128
  features) and on entry `q` of the scale and of the shift. Row `p` of block `t` is row `5000 t + p` of the array, so
  what point `t` writes back is block `t` of the row-wise function `Cert.Spec.layerNorm` of the whole arrays, and the
  ten blocks cover every row: the result array is that function.
-/
import proofs.«124537_j18863496364647_1_alg».proof.Proof.Gen.KernelIdeal.Frame
import proofs.«124537_j18863496364647_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators

namespace Cert.KernelIdeal.NormBlocks

open Cert.KernelIdeal Cert.KernelIdeal.Gen Idealize.ShloMosaic Idealize.ShloMosaic.ValueIdx Idealize.ShloMosaic.TcCoe Idealize.SL.Sem
open Idealize.ShloMosaic.Pipeline (Dat)

/-! ## One row, normalised -/

/-- Layer normalisation of one row `a` of 128 features, read at feature `q`: the entry minus the row's mean, times the
    reciprocal square root of the row's variance plus ε, times the scale `γ`, plus the shift `β`. -/
def normRow (a : Fin 128 → EReal) (γ β : EReal) (q : Fin 128) : EReal :=
  (a q - Ideal.div (∑ k : Fin 128, a k) (Ideal.ofBits .f32 0x43000000#32))
    * Ideal.rsqrt (Ideal.div (∑ k : Fin 128, (a k - Ideal.div (∑ k' : Fin 128, a k') (Ideal.ofBits .f32 0x43000000#32))
        * (a k - Ideal.div (∑ k' : Fin 128, a k') (Ideal.ofBits .f32 0x43000000#32))) (Ideal.ofBits .f32 0x43000000#32)
      + Ideal.ofBits .f32 0x3727C5AC#32)
    * γ + β

/-- The specification at row `r`, feature `q` is the normalised row `r` of `x + agg`. -/
theorem layerNorm_apply (x agg : Cert.Spec.SNode.Idx → EReal) (γ β : Cert.Spec.SFeat.Idx → EReal) (r : Fin 50000) (q : Fin 128) :
    Cert.Spec.layerNorm x agg γ β (ix2 r q) = normRow (fun k => x (ix2 r k) + agg (ix2 r k)) (γ (ix1 q)) (β (ix1 q)) q := rfl

/-! ## Layout operations of the body, read at an index -/

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reciprocal square root at an index is that of the element. -/
theorem rsqrt_apply {s : Shape} {φ : FTy} (a : FVec Ideal s φ) (i : s.Idx) : rsqrt a i = Ideal.rsqrt (a i) := rfl

/-- The sum along the lanes of a block, read at row `p`: the sum of the row's 128 entries. -/
theorem laneSum_apply (v : FVec Ideal S5000x128 .f32) (h : S5000x128.Reduces [1] S5000) (hφ : FKind.Formats .f32)
    (hacc : (0x00000000#32 : BitVec 32) = 0x00000000#32) (p : Fin 5000) :
    multiReduction .add [1] S5000 v 0x00000000#32 h hφ hacc (ix1 p) = ∑ k : Fin 128, v (ix2 p k) := by
  refine (Ideal.multiReduction_add_single v 0x00000000#32 h hφ hacc (ix1 p)).trans ?_
  refine Finset.sum_congr rfl fun k _ => congrArg v ?_
  funext a
  match a with
  | ⟨0, _⟩ => rfl
  | ⟨1, _⟩ => rfl

/-! ## The body's arithmetic at an entry of the block -/

/-- Entry `(p, q)` of what the body stores: row `p` of the sum of the two input blocks, normalised, with the scale's and
    the shift's entry `q`. The pointwise operations and the layout operations are read at the entry; the two lane sums
    become sums over the row's 128 features, the second one of the squared deviations from the first one's mean. -/
theorem pay_apply (x0 x1 : Vec Ideal S5000x128 .f32) (g b : Vec Ideal S128 .f32) (p : Fin 5000) (q : Fin 128) :
    k1_pay1 (F := Ideal) x0 x1 g b (ix2 p q)
      = normRow (fun k => x0 (ix2 p k) + x1 (ix2 p k)) (g (ix1 q)) (b (ix1 q)) q := by
  unfold k1_pay1 normRow
  simp only [shapeCast_self, addf_apply, mulf_apply, subf_apply, divf_apply, broadcast_apply, rsqrt_apply,
    broadcastTo_a1_ab_apply, broadcastTo_1b_ab_apply, shapeCast_a_a1_apply, shapeCast_a_1a_apply]
  rw [laneSum_apply, laneSum_apply]
  simp only [addf_apply, mulf_apply, subf_apply, divf_apply, broadcast_apply,
    broadcastTo_a1_ab_apply, shapeCast_a_a1_apply]
  rw [laneSum_apply]
  simp only [addf_apply]
  rfl

/-! ## Blocks of the arrays -/

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps over the ten grid points: the blocks of `x`, of `agg` and of the result at point `t` are
    block row `t`, block column 0; the scale and the shift are always their one whole block. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0 ∧ win1_3.index t (0 : Fin 1) = 0
    ∧ win1_4.index t (0 : Fin 2) = t.val ∧ win1_4.index t (1 : Fin 2) = 0 :=
  (by decide +kernel : ∀ t : Fin grid1.N, _)

/-- Entry `(p, k)` of block `t` of `x` is entry `(r, k)` of `x` for `r = 5000 t + p`. -/
theorem blk_x_apply (c : Dev nD) (t : Fin cfg1.N) (p : Fin 5000) (k : Fin 128) (r : Fin 50000) (hr : r.val = t.val * 5000 + p.val) :
    (iblk1 V c 0 t : Vec Ideal S5000x128 .f32) (ix2 p k) = (V c main_arg0 : Cert.Spec.SNode.Idx → EReal) (ix2 r k) := by
  obtain ⟨e0, e1, -⟩ := block_index t
  unfold iblk1
  rw [View.read_apply]
  show V c main_arg0 _ = V c main_arg0 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Entry `(p, k)` of block `t` of `agg` is entry `(r, k)` of `agg` for `r = 5000 t + p`. -/
theorem blk_agg_apply (c : Dev nD) (t : Fin cfg1.N) (p : Fin 5000) (k : Fin 128) (r : Fin 50000) (hr : r.val = t.val * 5000 + p.val) :
    (iblk1 V c 1 t : Vec Ideal S5000x128 .f32) (ix2 p k) = (V c main_v23 : Cert.Spec.SNode.Idx → EReal) (ix2 r k) := by
  obtain ⟨-, -, e0, e1, -⟩ := block_index t
  unfold iblk1
  rw [View.read_apply]
  show V c main_v23 _ = V c main_v23 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- The scale's block at any point is the scale. -/
theorem blk_gamma_apply (c : Dev nD) (t : Fin cfg1.N) (q : Fin 128) :
    (iblk1 V c 2 t : Vec Ideal S128 .f32) (ix1 q) = (V c main_arg6 : Cert.Spec.SFeat.Idx → EReal) (ix1 q) := by
  obtain ⟨-, -, -, -, e0, -⟩ := block_index t
  unfold iblk1
  rw [View.read_apply]
  show V c main_arg6 _ = V c main_arg6 _
  congr 1
  funext a
  apply Fin.ext
  match a with
  | ⟨0, _⟩ => show win1_2.index t (0 : Fin 1) * 128 + 1 * q.val = q.val; rw [e0]; omega

/-- The shift's block at any point is the shift. -/
theorem blk_beta_apply (c : Dev nD) (t : Fin cfg1.N) (q : Fin 128) :
    (iblk1 V c 3 t : Vec Ideal S128 .f32) (ix1 q) = (V c main_arg7 : Cert.Spec.SFeat.Idx → EReal) (ix1 q) := by
  obtain ⟨-, -, -, -, -, e0, -⟩ := block_index t
  unfold iblk1
  rw [View.read_apply]
  show V c main_arg7 _ = V c main_arg7 _
  congr 1
  funext a
  apply Fin.ext
  match a with
  | ⟨0, _⟩ => show win1_3.index t (0 : Fin 1) * 128 + 1 * q.val = q.val; rw [e0]; omega

/-! ## What a point writes back, and the whole array -/

/-- Point `t` writes back block `t` of the layer normalisation of the arrays as the call finds them: entry `(p, q)` of
    the block is entry `(5000 t + p, q)` of the array, and row `p` of the two input blocks is row `5000 t + p` of `x`
    and of `agg`. -/
theorem flushed_eq (c : Dev nD) (t : Fin cfg1.N) :
    (dat1 (F := Ideal) V c).flushed 4 t
      = ((cfg1.win 4).blk t).view.read (Elt Ideal)
          (Cert.Spec.layerNorm (V c main_arg0) (V c main_v23) (V c main_arg6) (V c main_arg7)) := by
  show (cfg1.win 4).cut (grid1.coords t) ((dat1 V c).after 4 t) = _
  rw [after1_4]
  unfold out1_4
  rw [View.canon_unit_zero zeros2]
  simp only [View.ld_unit_zero (S := S5000x128) zeros2, View.ld_unit_zero (S := S128) zeros1]
  funext j
  obtain ⟨p, q, rfl⟩ : ∃ (p : Fin 5000) (q : Fin 128), j = ix2 p q := ⟨j 0, j 1, eq_ix2 j⟩
  obtain ⟨-, -, -, -, -, -, e0, e1⟩ := block_index t
  have hN : cfg1.N = 10 := N_1
  have ht : t.val < 10 := by have := t.isLt; omega
  have hp : p.val < 5000 := p.isLt
  show k1_pay1 (F := Ideal) (iblk1 V c 0 t) (iblk1 V c 1 t) (iblk1 V c 2 t) (iblk1 V c 3 t) (ix2 p q)
    = Cert.Spec.layerNorm (V c main_arg0) (V c main_v23) (V c main_arg6) (V c main_arg7) (((cfg1.win 4).blk t).view.emb (ix2 p q))
  have hemb : ((cfg1.win 4).blk t).view.emb (ix2 p q)
      = (ix2 (⟨t.val * 5000 + p.val, by omega⟩ : Fin 50000) q : Cert.Spec.SNode.Idx) := by
    funext a
    apply Fin.ext
    match a with
    | ⟨0, _⟩ => show win1_4.index t (0 : Fin 2) * 5000 + 1 * p.val = t.val * 5000 + p.val; rw [e0]; omega
    | ⟨1, _⟩ => show win1_4.index t (1 : Fin 2) * 128 + 1 * q.val = q.val; rw [e1]; omega
  rw [hemb, layerNorm_apply]
  refine (pay_apply _ _ _ _ p q).trans ?_
  rw [blk_gamma_apply V c t q, blk_beta_apply V c t q]
  refine congrArg (fun f => normRow f _ _ q) (funext fun k => ?_)
  rw [blk_x_apply V c t p k ⟨t.val * 5000 + p.val, by omega⟩ rfl, blk_agg_apply V c t p k ⟨t.val * 5000 + p.val, by omega⟩ rfl]

/-- The ten blocks cover the rows (row `r` is in block `r / 5000`), so after the call the result array is the layer
    normalisation of `x + agg` with the scale and the shift, as the call found them. -/
theorem norm_array (V : (c : Dev nD) → (b : Ref sig .tc) → Buf (Elt Ideal) ((c : Thread nD τ).loc b)) (c : Dev nD) :
    (dat1 (F := Ideal) V c).arrAt 4 cfg1.N
      = Cert.Spec.layerNorm (V c main_arg0) (V c main_v23) (V c main_arg6) (V c main_arg7) :=
  (dat1 (F := Ideal) V c).arrAt_eq_of_cover 4
    (Cert.Spec.layerNorm (V c main_arg0) (V c main_v23) (V c main_arg6) (V c main_arg7))
    (fun t _ => flushed_eq V c t) fun i => by
      have hN : cfg1.N = 10 := N_1
      have hi0 : (i 0).val < 50000 := (i 0).isLt
      have hi1 : (i 1).val < 128 := (i 1).isLt
      have hlt : (i 0).val / 5000 < cfg1.N := by rw [hN]; omega
      obtain ⟨-, -, -, -, -, -, e0, e1⟩ := block_index ⟨(i 0).val / 5000, hlt⟩
      refine ⟨⟨(i 0).val / 5000, hlt⟩, flush1_4 _, ?_⟩
      show i ∈ ((View.whole main_v24).slice (win1_4.rect ⟨(i 0).val / 5000, hlt⟩)).set
      rw [View.set_slice_whole, Rect.mem_set_unit]
      intro a
      match a with
      | ⟨0, _⟩ =>
        show win1_4.index ⟨(i 0).val / 5000, hlt⟩ (0 : Fin 2) * 5000 ≤ (i 0).val
          ∧ (i 0).val < win1_4.index ⟨(i 0).val / 5000, hlt⟩ (0 : Fin 2) * 5000 + 5000
        rw [e0]
        show (i 0).val / 5000 * 5000 ≤ (i 0).val ∧ (i 0).val < (i 0).val / 5000 * 5000 + 5000
        omega
      | ⟨1, _⟩ =>
        show win1_4.index ⟨(i 0).val / 5000, hlt⟩ (1 : Fin 2) * 128 ≤ (i 1).val
          ∧ (i 1).val < win1_4.index ⟨(i 0).val / 5000, hlt⟩ (1 : Fin 2) * 128 + 128
        rw [e1]
        omega

end Cert.KernelIdeal.NormBlocks

end
-- ==== Proof.EdgeBlocks.lean ====
/-
  The edge stage of the layer, block by block.

  The edge kernel runs over 80 grid points. Point `t` reads rows `10000·t … 10000·t + 9999` of the two gathered
  arrays (source rows and target rows, 800000 × 128 each) and the whole of the five small arrays (the two halves of the
  first layer's weights, its bias, the second layer's weights and bias), and writes the same rows of the message array.
  Entry `(p, q)` of the block it writes is
  `logistic (Σ_j max (Σ_k xs[p,k]·Wa[k,j] + Σ_k xt[p,k]·Wb[k,j] + b1[j]) 0 · W2[j,0] + b2[0]) · xs[p,q]`:
  it depends on row `p` of the two gathered blocks only, so block `t` of the result is block `t` of one function of
  the whole arrays, `Cert.Spec.edgeHalves`, and the 80 blocks tile the 800000 rows (row `r` lies in block `r / 10000`).
-/
import proofs.«124537_j18863496364647_1_alg».proof.Proof.Gen.KernelIdeal.Frame
import proofs.«124537_j18863496364647_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators

namespace Cert.KernelIdeal.EdgeBlocks

open Cert.KernelIdeal Cert.KernelIdeal.Gen Idealize.ShloMosaic Idealize.ShloMosaic.ValueIdx Idealize.ShloMosaic.TcCoe Idealize.SL.Sem
open Idealize.ShloMosaic.Pipeline (Dat)

/-! ## The block's arithmetic at an entry -/

section Layout
variable {α : Type}

/-- A column `[a, 1]` broadcast along the lanes to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[b]` viewed as one row and broadcast over `a` rows reads, at `(p, c)`, the vector's entry `c`. -/
theorem rowOf_apply {a b : ℕ} (v : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ v h₁) h₂ (ix2 p c) = v (ix1 c) :=
  (broadcastTo_1b_ab_apply _ h₂ p c).trans (shapeCast_a_1a_apply v h₁ 0 c)

end Layout

/-- The logistic function of a vector, at an index. -/
theorem logistic_apply {s : Shape} {φ : FTy} (v : FVec Ideal s φ) (i : s.Idx) : logistic v i = Ideal.logistic (v i) := rfl

/-! The operand indices of the two products: a row of the left block, a column of the right matrix, the contraction
position on the left's lanes and the right's rows. -/

theorem wide_lhs0 (i : S10000x128.Idx) (r : dot_S10000x128_S128x128_S10000x128_1_0_0_1_n_n.contr.Idx) : (dot_S10000x128_S128x128_S10000x128_1_0_0_1_n_n.lhsIdx i r 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem wide_lhs1 (i : S10000x128.Idx) (r : dot_S10000x128_S128x128_S10000x128_1_0_0_1_n_n.contr.Idx) : (dot_S10000x128_S128x128_S10000x128_1_0_0_1_n_n.lhsIdx i r 1).val = (r ⟨0, by decide⟩).val :=
  dot_S10000x128_S128x128_S10000x128_1_0_0_1_n_n.lhsIdx_val_of_single rfl i r
theorem wide_rhs0 (i : S10000x128.Idx) (r : dot_S10000x128_S128x128_S10000x128_1_0_0_1_n_n.contr.Idx) : (dot_S10000x128_S128x128_S10000x128_1_0_0_1_n_n.rhsIdx i r 0).val = (r ⟨0, by decide⟩).val :=
  dot_S10000x128_S128x128_S10000x128_1_0_0_1_n_n.rhsIdx_val_of_single rfl i r
theorem wide_rhs1 (i : S10000x128.Idx) (r : dot_S10000x128_S128x128_S10000x128_1_0_0_1_n_n.contr.Idx) : (dot_S10000x128_S128x128_S10000x128_1_0_0_1_n_n.rhsIdx i r 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem col_lhs0 (i : S10000x1.Idx) (r : dot_S10000x128_S128x1_S10000x1_1_0_0_1_n_n.contr.Idx) : (dot_S10000x128_S128x1_S10000x1_1_0_0_1_n_n.lhsIdx i r 0).val = (i 0).val := by
  unfold DotDims.lhsIdx
  rw [dif_neg (show ¬(0 : Fin S10000x128.rank) ∈ dot_S10000x128_S128x1_S10000x1_1_0_0_1_n_n.lhsBatch by decide), dif_pos (show (0 : Fin S10000x128.rank) ∈ dot_S10000x128_S128x1_S10000x1_1_0_0_1_n_n.lhsNonContracting by decide)]
  rfl
theorem col_lhs1 (i : S10000x1.Idx) (r : dot_S10000x128_S128x1_S10000x1_1_0_0_1_n_n.contr.Idx) : (dot_S10000x128_S128x1_S10000x1_1_0_0_1_n_n.lhsIdx i r 1).val = (r ⟨0, by decide⟩).val :=
  dot_S10000x128_S128x1_S10000x1_1_0_0_1_n_n.lhsIdx_val_of_single rfl i r
theorem col_rhs0 (i : S10000x1.Idx) (r : dot_S10000x128_S128x1_S10000x1_1_0_0_1_n_n.contr.Idx) : (dot_S10000x128_S128x1_S10000x1_1_0_0_1_n_n.rhsIdx i r 0).val = (r ⟨0, by decide⟩).val :=
  dot_S10000x128_S128x1_S10000x1_1_0_0_1_n_n.rhsIdx_val_of_single rfl i r
theorem col_rhs1 (i : S10000x1.Idx) (r : dot_S10000x128_S128x1_S10000x1_1_0_0_1_n_n.contr.Idx) : (dot_S10000x128_S128x1_S10000x1_1_0_0_1_n_n.rhsIdx i r 1).val = (i 1).val := by
  unfold DotDims.rhsIdx
  rw [dif_neg (show ¬(1 : Fin S128x1.rank) ∈ dot_S10000x128_S128x1_S10000x1_1_0_0_1_n_n.rhsBatch by decide), dif_pos (show (1 : Fin S128x1.rank) ∈ dot_S10000x128_S128x1_S10000x1_1_0_0_1_n_n.rhsNonContracting by decide)]
  rfl

/-- A `[10000, 128]` block times a `[128, 128]` matrix, into the zero accumulator: entry `(p, q)` is the sum over the
    128 contraction positions of row `p` of the block times column `q` of the matrix. -/
theorem matmul_wide_apply (x : FVec Ideal S10000x128 .bf16) (w : FVec Ideal S128x128 .bf16) (p : Fin 10000) (q : Fin 128) :
    matmul dot_S10000x128_S128x128_S10000x128_1_0_0_1_n_n none x w (constant (F := Ideal) S10000x128 .f32 0x00000000#32) (ix2 p q)
      = ∑ k : Fin 128, x (ix2 p k) * w (ix2 k q) := by
  refine (Ideal.matmul_constant_zero_apply dot_S10000x128_S128x128_S10000x128_1_0_0_1_n_n none x w (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k :=
    funext fun a => Fin.ext (by
      match a with
      | ⟨0, _⟩ => exact wide_lhs0 _ _
      | ⟨1, _⟩ => exact (wide_lhs1 _ _).trans hk)
  have er : dot_S10000x128_S128x128_S10000x128_1_0_0_1_n_n.rhsIdx (ix2 p q) ((contrEquiv1 dot_S10000x128_S128x128_S10000x128_1_0_0_1_n_n 128 rfl rfl).symm k) = ix2 k q :=
    funext fun a => Fin.ext (by
      match a with
      | ⟨0, _⟩ => exact (wide_rhs0 _ _).trans hk
      | ⟨1, _⟩ => exact wide_rhs1 _ _)
  rw [el, er]

/-- A `[10000, 128]` block times a `[128, 1]` column, into the zero accumulator: entry `(p, 0)` is the sum over the
    128 contraction positions of row `p` of the block times the column. -/
theorem matmul_col_apply (x : FVec Ideal S10000x128 .bf16) (w : FVec Ideal S128x1 .bf16) (p : Fin 10000) (u : Fin 1) :
    matmul dot_S10000x128_S128x1_S10000x1_1_0_0_1_n_n none x w (constant (F := Ideal) S10000x1 .f32 0x00000000#32) (ix2 p u)
      = ∑ k : Fin 128, x (ix2 p k) * w (ix2 k u) := by
  refine (Ideal.matmul_constant_zero_apply dot_S10000x128_S128x1_S10000x1_1_0_0_1_n_n none x w (ix2 p u)).trans ?_
  rw [← Equiv.sum_comp (contrEquiv1 dot_S10000x128_S128x1_S10000x1_1_0_0_1_n_n 128 rfl rfl).symm]
  refine Finset.sum_congr rfl fun k _ => ?_
  have hk := contrEquiv1_symm_val dot_S10000x128_S128x1_S10000x1_1_0_0_1_n_n 128 rfl rfl k
  have el : dot_S10000x128_S128x1_S10000x1_1_0_0_1_n_n.lhsIdx (ix2 p u) ((contrEquiv1 dot_S10000x128_S128x1_S10000x1_1_0_0_1_n_n 128 rfl rfl).symm k) = ix2 p k :=
    funext fun a => Fin.ext (by
      match a with
      | ⟨0, _⟩ => exact col_lhs0 _ _
      | ⟨1, _⟩ => exact (col_lhs1 _ _).trans hk)
  have er : dot_S10000x128_S128x1_S10000x1_1_0_0_1_n_n.rhsIdx (ix2 p u) ((contrEquiv1 dot_S10000x128_S128x1_S10000x1_1_0_0_1_n_n 128 rfl rfl).symm k) = ix2 k u :=
    funext fun a => Fin.ext (by
      match a with
      | ⟨0, _⟩ => exact (col_rhs0 _ _).trans hk
      | ⟨1, _⟩ => exact col_rhs1 _ _)
  rw [el, er]

/-- ENTRY `(p, q)` OF WHAT THE BODY STORES, from the blocks it loaded: the gate of row `p` — the logistic function of
    the second layer applied to the rectified first layer of row `p` of the two gathered blocks — times the source
    block's entry. The changes of float format are the identity on the extended reals. -/
theorem pay_apply (x0 x1 : Vec Ideal S10000x128 .f32) (wa wb : Vec Ideal S128x128 .f32) (b1 : Vec Ideal S128 .f32)
    (w2 : Vec Ideal S128x1 .f32) (b2 : Vec Ideal S1 .f32) (p : Fin 10000) (q : Fin 128) :
    k0_pay1 x0 x1 wa wb b1 w2 b2 (ix2 p q)
      = Ideal.logistic ((∑ j : Fin 128, max ((∑ k : Fin 128, x0 (ix2 p k) * wa (ix2 k j)) + (∑ k : Fin 128, x1 (ix2 p k) * wb (ix2 k j)) + b1 (ix1 j)) (Ideal.ofBits .f32 0x00000000#32) * w2 (ix2 j 0)) + b2 (ix1 0)) * x0 (ix2 p q) := by
  unfold k0_pay1
  simp only [shapeCast_self]
  rw [mulf_apply, broadcastTo_a1_ab_apply, logistic_apply, addf_apply, matmul_col_apply, rowOf_apply]
  refine congrArg (fun s => Ideal.logistic (s + b2 (ix1 0)) * x0 (ix2 p q)) (Finset.sum_congr rfl fun j _ => ?_)
  rw [truncf_apply, truncf_apply, maximumf_apply, addf_apply, addf_apply, matmul_wide_apply, matmul_wide_apply, rowOf_apply,
    broadcast_apply]
  simp only [truncf_apply]
  rfl

/-! ## From the loaded blocks to the arrays -/

/-- Entry `(p, q)` of what the body stores is entry `(r, q)` of the edge messages of the whole arrays, when row `p` of
    the two gathered blocks is row `r` of the two gathered arrays and the five small blocks are the small arrays. -/
theorem entry_eq (x0 x1 : Vec Ideal S10000x128 .f32) (wa wb : Vec Ideal S128x128 .f32) (b1 : Vec Ideal S128 .f32)
    (w2 : Vec Ideal S128x1 .f32) (b2 : Vec Ideal S1 .f32)
    (Xs Xt : Cert.Spec.SEdge.Idx → EReal) (Wa Wb : Cert.Spec.SHalf.Idx → EReal) (B1 : Cert.Spec.SFeat.Idx → EReal)
    (W2 : Cert.Spec.SW2.Idx → EReal) (B2 : Cert.Spec.SOne.Idx → EReal)
    (r : Fin 800000) (p : Fin 10000) (q : Fin 128)
    (h0 : ∀ k : Fin 128, x0 (ix2 p k) = Xs (ix2 r k)) (h1 : ∀ k : Fin 128, x1 (ix2 p k) = Xt (ix2 r k))
    (ha : wa = Wa) (hb : wb = Wb) (hb1 : b1 = B1) (hw2 : w2 = W2) (hb2 : b2 = B2) :
    k0_pay1 x0 x1 wa wb b1 w2 b2 (ix2 p q) = Cert.Spec.edgeHalves Xs Xt Wa Wb B1 W2 B2 (ix2 r q) := by
  subst ha hb hb1 hw2 hb2
  rw [pay_apply]
  simp only [h0, h1]
  rfl

theorem hz2 : (![0, 0] : Fin 2 → Nat) = fun _ => 0 := funext fun a => by fin_cases a <;> rfl
theorem hz1 : (![0] : Fin 1 → Nat) = fun _ => 0 := funext fun a => by fin_cases a <;> rfl

/-- The block index of the three row-blocked windows (the two gathered arrays and the result) at point `t` is `(t, 0)`:
    decided over the 80 points. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_7.index t (0 : Fin 2) = t.val ∧ win0_7.index t (1 : Fin 2) = 0) :=
  (by decide +kernel : ∀ t : Fin grid0.N, _)

/-- The block index of the five small windows is zero at every point: each is its whole array. -/
theorem idx_whole : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0 :=
  (by decide +kernel : ∀ t : Fin grid0.N, _)

/-- Row `p` of the source block at point `t` is row `10000·t + p` of the gathered source rows. -/
theorem src_apply (V : (c : Dev nD) → (b : Ref sig .tc) → Buf (Elt Ideal) ((c : Thread nD τ).loc b)) (c : Dev nD) (t : Fin cfg0.N) (p : Fin 10000) (k : Fin 128) (r : Fin 800000)
    (hr : r.val = t.val * 10000 + p.val) :
    (iblk0 V c 0 t : Vec Ideal S10000x128 .f32) (ix2 p k) = (V c main_v10 : Cert.Spec.SEdge.Idx → EReal) (ix2 r k) := by
  obtain ⟨e0, e1⟩ := (idx_rows t).1
  show (V c main_v10 : Cert.Spec.SEdge.Idx → EReal) (((cfg0.win 0).blk t).view.emb (ix2 p k : S10000x128.Idx)) = _
  refine congrArg (V c main_v10 : Cert.Spec.SEdge.Idx → EReal) (funext fun a => Fin.ext ?_)
  match a with
  | ⟨0, _⟩ => show win0_0.index t (0 : Fin 2) * 10000 + 1 * p.val = r.val; rw [e0, hr]; omega
  | ⟨1, _⟩ => show win0_0.index t (1 : Fin 2) * 128 + 1 * k.val = k.val; rw [e1]; omega

/-- Row `p` of the target block at point `t` is row `10000·t + p` of the gathered target rows. -/
theorem tgt_apply (V : (c : Dev nD) → (b : Ref sig .tc) → Buf (Elt Ideal) ((c : Thread nD τ).loc b)) (c : Dev nD) (t : Fin cfg0.N) (p : Fin 10000) (k : Fin 128) (r : Fin 800000)
    (hr : r.val = t.val * 10000 + p.val) :
    (iblk0 V c 1 t : Vec Ideal S10000x128 .f32) (ix2 p k) = (V c main_v17 : Cert.Spec.SEdge.Idx → EReal) (ix2 r k) := by
  obtain ⟨e0, e1⟩ := (idx_rows t).2.1
  show (V c main_v17 : Cert.Spec.SEdge.Idx → EReal) (((cfg0.win 1).blk t).view.emb (ix2 p k : S10000x128.Idx)) = _
  refine congrArg (V c main_v17 : Cert.Spec.SEdge.Idx → EReal) (funext fun a => Fin.ext ?_)
  match a with
  | ⟨0, _⟩ => show win0_1.index t (0 : Fin 2) * 10000 + 1 * p.val = r.val; rw [e0, hr]; omega
  | ⟨1, _⟩ => show win0_1.index t (1 : Fin 2) * 128 + 1 * k.val = k.val; rw [e1]; omega

/-- The block of the first half of the first layer's weights is that whole matrix, at every point. -/
theorem w1a_eq (V : (c : Dev nD) → (b : Ref sig .tc) → Buf (Elt Ideal) ((c : Thread nD τ).loc b)) (c : Dev nD) (t : Fin cfg0.N) :
    (iblk0 V c 2 t : Vec Ideal S128x128 .f32) = (V c main_v18 : Cert.Spec.SHalf.Idx → EReal) := by
  obtain ⟨e0, e1⟩ := (idx_whole t).1
  funext i
  show (V c main_v18 : Cert.Spec.SHalf.Idx → EReal) (((cfg0.win 2).blk t).view.emb (i : S128x128.Idx)) = _
  refine congrArg (V c main_v18 : Cert.Spec.SHalf.Idx → EReal) (funext fun a => Fin.ext ?_)
  match a with
  | ⟨0, _⟩ => show win0_2.index t (0 : Fin 2) * 128 + 1 * (i 0).val = (i 0).val; rw [e0]; omega
  | ⟨1, _⟩ => show win0_2.index t (1 : Fin 2) * 128 + 1 * (i 1).val = (i 1).val; rw [e1]; omega

/-- The block of the second half of the first layer's weights is that whole matrix, at every point. -/
theorem w1b_eq (V : (c : Dev nD) → (b : Ref sig .tc) → Buf (Elt Ideal) ((c : Thread nD τ).loc b)) (c : Dev nD) (t : Fin cfg0.N) :
    (iblk0 V c 3 t : Vec Ideal S128x128 .f32) = (V c main_v19 : Cert.Spec.SHalf.Idx → EReal) := by
  obtain ⟨e0, e1⟩ := (idx_whole t).2.1
  funext i
  show (V c main_v19 : Cert.Spec.SHalf.Idx → EReal) (((cfg0.win 3).blk t).view.emb (i : S128x128.Idx)) = _
  refine congrArg (V c main_v19 : Cert.Spec.SHalf.Idx → EReal) (funext fun a => Fin.ext ?_)
  match a with
  | ⟨0, _⟩ => show win0_3.index t (0 : Fin 2) * 128 + 1 * (i 0).val = (i 0).val; rw [e0]; omega
  | ⟨1, _⟩ => show win0_3.index t (1 : Fin 2) * 128 + 1 * (i 1).val = (i 1).val; rw [e1]; omega

/-- The block of the first layer's bias is the whole vector, at every point. -/
theorem b1_eq (V : (c : Dev nD) → (b : Ref sig .tc) → Buf (Elt Ideal) ((c : Thread nD τ).loc b)) (c : Dev nD) (t : Fin cfg0.N) :
    (iblk0 V c 4 t : Vec Ideal S128 .f32) = (V c main_arg3 : Cert.Spec.SFeat.Idx → EReal) := by
  have e0 := (idx_whole t).2.2.1
  funext i
  show (V c main_arg3 : Cert.Spec.SFeat.Idx → EReal) (((cfg0.win 4).blk t).view.emb (i : S128.Idx)) = _
  refine congrArg (V c main_arg3 : Cert.Spec.SFeat.Idx → EReal) (funext fun a => Fin.ext ?_)
  match a with
  | ⟨0, _⟩ => show win0_4.index t (0 : Fin 1) * 128 + 1 * (i 0).val = (i 0).val; rw [e0]; omega

/-- The block of the second layer's weights is the whole column, at every point. -/
theorem w2_eq (V : (c : Dev nD) → (b : Ref sig .tc) → Buf (Elt Ideal) ((c : Thread nD τ).loc b)) (c : Dev nD) (t : Fin cfg0.N) :
    (iblk0 V c 5 t : Vec Ideal S128x1 .f32) = (V c main_arg4 : Cert.Spec.SW2.Idx → EReal) := by
  obtain ⟨e0, e1⟩ := (idx_whole t).2.2.2.1
  funext i
  show (V c main_arg4 : Cert.Spec.SW2.Idx → EReal) (((cfg0.win 5).blk t).view.emb (i : S128x1.Idx)) = _
  refine congrArg (V c main_arg4 : Cert.Spec.SW2.Idx → EReal) (funext fun a => Fin.ext ?_)
  match a with
  | ⟨0, _⟩ => show win0_5.index t (0 : Fin 2) * 128 + 1 * (i 0).val = (i 0).val; rw [e0]; omega
  | ⟨1, _⟩ => show win0_5.index t (1 : Fin 2) * 1 + 1 * (i 1).val = (i 1).val; rw [e1]; omega

/-- The block of the second layer's bias is the whole one-entry vector, at every point. -/
theorem b2_eq (V : (c : Dev nD) → (b : Ref sig .tc) → Buf (Elt Ideal) ((c : Thread nD τ).loc b)) (c : Dev nD) (t : Fin cfg0.N) :
    (iblk0 V c 6 t : Vec Ideal S1 .f32) = (V c main_arg5 : Cert.Spec.SOne.Idx → EReal) := by
  have e0 := (idx_whole t).2.2.2.2
  funext i
  show (V c main_arg5 : Cert.Spec.SOne.Idx → EReal) (((cfg0.win 6).blk t).view.emb (i : S1.Idx)) = _
  refine congrArg (V c main_arg5 : Cert.Spec.SOne.Idx → EReal) (funext fun a => Fin.ext ?_)
  match a with
  | ⟨0, _⟩ => show win0_6.index t (0 : Fin 1) * 1 + 1 * (i 0).val = (i 0).val; rw [e0]; omega

/-- Entry `(p, q)` of the result's block at point `t` sits at `(10000·t + p, q)` of the result array. -/
theorem out_emb (t : Fin cfg0.N) (p : Fin 10000) (q : Fin 128) (r : Fin 800000) (hr : r.val = t.val * 10000 + p.val) :
    (((cfg0.win 7).blk t).view.emb (ix2 p q : S10000x128.Idx) : Cert.Spec.SEdge.Idx) = ix2 r q := by
  obtain ⟨e0, e1⟩ := (idx_rows t).2.2
  funext a
  refine Fin.ext ?_
  match a with
  | ⟨0, _⟩ => show win0_7.index t (0 : Fin 2) * 10000 + 1 * p.val = r.val; rw [e0, hr]; omega
  | ⟨1, _⟩ => show win0_7.index t (1 : Fin 2) * 128 + 1 * q.val = q.val; rw [e1]; omega

/-- WHAT POINT `t` WRITES BACK is block `t` of the edge messages of the arrays as the region finds them. -/
theorem flushed_eq (V : (c : Dev nD) → (b : Ref sig .tc) → Buf (Elt Ideal) ((c : Thread nD τ).loc b)) (c : Dev nD) (t : Fin cfg0.N) :
    (dat0 (F := Ideal) V c).flushed 7 t
      = ((cfg0.win 7).blk t).view.read (Elt Ideal) (Cert.Spec.edgeHalves (V c main_v10) (V c main_v17) (V c main_v18) (V c main_v19) (V c main_arg3) (V c main_arg4) (V c main_arg5)) := by
  show (cfg0.win 7).cut (grid0.coords t) ((dat0 (F := Ideal) V c).after 7 t) = _
  rw [after0_7]
  unfold out0_7
  rw [View.canon_unit_zero hz2]
  simp only [View.ld_unit_zero (S := S10000x128) hz2, View.ld_unit_zero (S := S128x128) hz2, View.ld_unit_zero (S := S128) hz1,
    View.ld_unit_zero (S := S128x1) hz2, View.ld_unit_zero (S := S1) hz1]
  refine funext fun (j : S10000x128.Idx) => ?_
  obtain ⟨p, q, rfl⟩ : ∃ (p : Fin 10000) (q : Fin 128), j = ix2 p q := ⟨j 0, j 1, eq_ix2 j⟩
  have ht : t.val < grid0.N := t.isLt
  rw [N_0] at ht
  obtain ⟨r, hr⟩ : ∃ r : Fin 800000, r.val = t.val * 10000 + p.val := ⟨⟨t.val * 10000 + p.val, by have := p.isLt; omega⟩, rfl⟩
  show k0_pay1 (iblk0 V c 0 t) (iblk0 V c 1 t) (iblk0 V c 2 t) (iblk0 V c 3 t) (iblk0 V c 4 t) (iblk0 V c 5 t) (iblk0 V c 6 t) (ix2 p q)
    = Cert.Spec.edgeHalves (V c main_v10) (V c main_v17) (V c main_v18) (V c main_v19) (V c main_arg3) (V c main_arg4) (V c main_arg5) (((cfg0.win 7).blk t).view.emb (ix2 p q : S10000x128.Idx))
  rw [out_emb t p q r hr]
  exact entry_eq (iblk0 V c 0 t) (iblk0 V c 1 t) (iblk0 V c 2 t) (iblk0 V c 3 t) (iblk0 V c 4 t) (iblk0 V c 5 t) (iblk0 V c 6 t)
    (V c main_v10) (V c main_v17) (V c main_v18) (V c main_v19) (V c main_arg3) (V c main_arg4) (V c main_arg5) r p q
    (fun k => src_apply V c t p k r hr) (fun k => tgt_apply V c t p k r hr)
    (w1a_eq V c t) (w1b_eq V c t) (b1_eq V c t) (w2_eq V c t) (b2_eq V c t)

/-- An index of the result array is in point `t`'s block iff each coordinate is in the block's range on its axis. -/
theorem mem_blk (t : Fin cfg0.N) (i : S800000x128.Idx) :
    i ∈ ((cfg0.win 7).blk t).view.set ↔ ∀ a : Fin 2, win0_7.index t a * S10000x128.size a ≤ (i a).val ∧ (i a).val < win0_7.index t a * S10000x128.size a + S10000x128.size a := by
  show i ∈ ((View.whole main_v20).slice (win0_7.rect t)).set ↔ _
  rw [View.set_slice_whole, Rect.mem_set_unit]
  exact Iff.rfl

/-- Every index of the result array is in the block of the point its row falls to: row `r` is in block `r / 10000`. -/
theorem covered (i : S800000x128.Idx) :
    ∃ t : Fin cfg0.N, (cfg0.win 7).flush t = true ∧ i ∈ ((cfg0.win 7).blk t).view.set := by
  have hi0 : (i 0).val < 800000 := (i 0).isLt
  have hi1 : (i 1).val < 128 := (i 1).isLt
  obtain ⟨t, ht⟩ : ∃ t : Fin cfg0.N, t.val = (i 0).val / 10000 :=
    ⟨⟨(i 0).val / 10000, by show _ < grid0.N; rw [N_0]; omega⟩, rfl⟩
  obtain ⟨e0, e1⟩ := (idx_rows t).2.2
  refine ⟨t, flush0_7 t, ?_⟩
  rw [mem_blk]
  intro a
  match a with
  | ⟨0, _⟩ =>
    show win0_7.index t (0 : Fin 2) * 10000 ≤ (i 0).val ∧ (i 0).val < win0_7.index t (0 : Fin 2) * 10000 + 10000
    rw [e0, ht]; omega
  | ⟨1, _⟩ =>
    show win0_7.index t (1 : Fin 2) * 128 ≤ (i 1).val ∧ (i 1).val < win0_7.index t (1 : Fin 2) * 128 + 128
    rw [e1]; omega

/-- THE MESSAGE ARRAY after the edge region: the edge messages of the seven arrays as the region finds them — each
    point writes its block of that one function, and the 80 blocks cover the 800000 rows. -/
theorem edge_array (V : (c : Dev nD) → (b : Ref sig .tc) → Buf (Elt Ideal) ((c : Thread nD τ).loc b)) (c : Dev nD) :
    (dat0 (F := Ideal) V c).arrAt 7 cfg0.N
      = Cert.Spec.edgeHalves (V c main_v10) (V c main_v17) (V c main_v18) (V c main_v19) (V c main_arg3) (V c main_arg4) (V c main_arg5) :=
  (dat0 (F := Ideal) V c).arrAt_eq_of_cover 7 (Cert.Spec.edgeHalves (V c main_v10) (V c main_v17) (V c main_v18) (V c main_v19) (V c main_arg3) (V c main_arg4) (V c main_arg5))
    (fun t _ => flushed_eq V c t) covered

end Cert.KernelIdeal.EdgeBlocks

end
-- ==== Proof.RefRead.lean ====
/-
  The idealized reference read as the shared specification, over the extended reals.

  Two readings, each index by index. The node stage: the reference's last value, its LayerNorm, is
  `Cert.Spec.layerNorm` of the input rows and of whatever its scatter-add wrote. The edge stage: the
  message the reference computes for every edge is `Cert.Spec.edgeMsg` of the gathered source rows and
  target rows. Nothing here opens a gather or the scatter-add: they stay as the values they are.
  Every law used is a definitional reading of an operation at an index, `0 + s = s`, or the splitting of a
  256-term sum into its two halves, so no finiteness is needed.
-/
import proofs.«124537_j18863496364647_1_alg».proof.Proof.Gen.ReferenceIdeal.Read
import proofs.«124537_j18863496364647_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefRead

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

/-! ## The node stage: LayerNorm of `x + agg` -/

section Norm
variable (x0 : (⟨S50000x128, .f32⟩ : BufTy).Contents (Elt Ideal)) (x1 : (⟨S2x800000, .i32⟩ : BufTy).Contents (Elt Ideal))
  (x2 : (⟨S256x128, .f32⟩ : BufTy).Contents (Elt Ideal)) (x3 : (⟨S128, .f32⟩ : BufTy).Contents (Elt Ideal))
  (x4 : (⟨S128x1, .f32⟩ : BufTy).Contents (Elt Ideal)) (x5 : (⟨S1, .f32⟩ : BufTy).Contents (Elt Ideal))

/-- The sum `x + agg` at node `r`, feature `k`. -/
theorem attended_read (r : Fin 50000) (k : Fin 128) :
    val_main_v48 (F := Ideal) x0 x1 x2 x3 x4 x5 (ix2 r k)
      = Cert.Spec.attended x0 (val_main_v47 (F := Ideal) x0 x1 x2 x3 x4 x5) r k := by
  rw [val_main_v48_apply]; rfl

/-- The mean over the features: the sum of the row from zero, divided by 128. -/
theorem mean_read (r : Fin 50000) (z : Fin 1) :
    val_main_v52 (F := Ideal) x0 x1 x2 x3 x4 x5 (ix2 r z)
      = Cert.Spec.rowMean x0 (val_main_v47 (F := Ideal) x0 x1 x2 x3 x4 x5) r := by
  have e50 : idx_main_v50 (ix2 r z) = ix1 r := funext fun a => Fin.ext (by match a with | ⟨0, _⟩ => rfl)
  have e49 : ∀ k : Fin 128, idx_main_v49 (ix1 r) k = ix2 r k := fun k =>
    funext fun a => Fin.ext (by match a with | ⟨0, _⟩ => rfl | ⟨1, _⟩ => rfl)
  rw [val_main_v52_apply, val_main_v50_apply, e50, val_main_v49_apply, val_main_v51_apply, val_main_cst_8_apply,
    val_main_cst_7_apply]
  simp only [e49, attended_read, Ideal.hostDivf_def, Ideal.ofBits_def, Ideal.ofBits_zero_f32, zero_add]
  rfl

/-- A feature less its row's mean, as the variance takes it … -/
theorem centred_read (r : Fin 50000) (k : Fin 128) :
    val_main_v54 (F := Ideal) x0 x1 x2 x3 x4 x5 (ix2 r k)
      = Cert.Spec.centred x0 (val_main_v47 (F := Ideal) x0 x1 x2 x3 x4 x5) r k := by
  have e53 : idx_main_v53 (ix2 r k) = ix2 r (0 : Fin 1) :=
    funext fun a => Fin.ext (by match a with | ⟨0, _⟩ => rfl | ⟨1, _⟩ => rfl)
  rw [val_main_v54_apply, val_main_v53_apply, e53, mean_read, attended_read]
  rfl

/-- … and as the normalised value takes it: the reference subtracts the mean a second time. -/
theorem centred_read' (r : Fin 50000) (k : Fin 128) :
    val_main_v61 (F := Ideal) x0 x1 x2 x3 x4 x5 (ix2 r k)
      = Cert.Spec.centred x0 (val_main_v47 (F := Ideal) x0 x1 x2 x3 x4 x5) r k := by
  have e60 : idx_main_v60 (ix2 r k) = ix2 r (0 : Fin 1) :=
    funext fun a => Fin.ext (by match a with | ⟨0, _⟩ => rfl | ⟨1, _⟩ => rfl)
  rw [val_main_v61_apply, val_main_v60_apply, e60, mean_read, attended_read]
  rfl

/-- The variance: the sum of the squared deviations from zero, divided by 128. -/
theorem var_read (r : Fin 50000) (z : Fin 1) :
    val_main_v59 (F := Ideal) x0 x1 x2 x3 x4 x5 (ix2 r z)
      = Cert.Spec.rowVar x0 (val_main_v47 (F := Ideal) x0 x1 x2 x3 x4 x5) r := by
  have e57 : idx_main_v57 (ix2 r z) = ix1 r := funext fun a => Fin.ext (by match a with | ⟨0, _⟩ => rfl)
  have e56 : ∀ k : Fin 128, idx_main_v56 (ix1 r) k = ix2 r k := fun k =>
    funext fun a => Fin.ext (by match a with | ⟨0, _⟩ => rfl | ⟨1, _⟩ => rfl)
  rw [val_main_v59_apply, val_main_v57_apply, e57, val_main_v56_apply, val_main_v58_apply, val_main_cst_10_apply,
    val_main_cst_9_apply]
  simp only [e56, val_main_v55_apply, centred_read, Ideal.hostDivf_def, Ideal.mulf_def, Ideal.ofBits_def,
    Ideal.ofBits_zero_f32, zero_add]
  rfl

/-- The reference's result is the LayerNorm of the input rows plus what the scatter-add wrote. -/
theorem ref_norm (x6 x7 : (⟨S128, .f32⟩ : BufTy).Contents (Elt Ideal)) :
    val_main_v72 (F := Ideal) x0 x1 x2 x3 x4 x5 x6 x7
      = Cert.Spec.layerNorm x0 (val_main_v47 (F := Ideal) x0 x1 x2 x3 x4 x5) x6 x7 := by
  funext i
  obtain ⟨r, q, rfl⟩ : ∃ (r : Fin 50000) (q : Fin 128), i = ix2 r q := ⟨i 0, i 1, eq_ix2 i⟩
  have e65 : idx_main_v65 (ix2 r q) = ix2 r (0 : Fin 1) :=
    funext fun a => Fin.ext (by match a with | ⟨0, _⟩ => rfl | ⟨1, _⟩ => rfl)
  have e68 : idx_main_v67 (idx_main_v68 (ix2 r q)) = ix1 q := funext fun a => Fin.ext (by match a with | ⟨0, _⟩ => rfl)
  have e71 : idx_main_v70 (idx_main_v71 (ix2 r q)) = ix1 q := funext fun a => Fin.ext (by match a with | ⟨0, _⟩ => rfl)
  rw [val_main_v72_apply, val_main_v69_apply, val_main_v66_apply, centred_read', val_main_v65_apply, e65,
    val_main_v64_apply, val_main_v63_apply, var_read, val_main_v62_apply, val_main_cst_11_apply, val_main_v68_apply,
    val_main_v67_apply, e68, val_main_v71_apply, val_main_v70_apply, e71]
  rfl

end Norm

/-! ## The edge stage: the gated message along every edge -/

section Edge
variable (x0 : (⟨S50000x128, .f32⟩ : BufTy).Contents (Elt Ideal)) (x1 : (⟨S2x800000, .i32⟩ : BufTy).Contents (Elt Ideal))
  (x2 : (⟨S256x128, .f32⟩ : BufTy).Contents (Elt Ideal)) (x3 : (⟨S128, .f32⟩ : BufTy).Contents (Elt Ideal))
  (x4 : (⟨S128x1, .f32⟩ : BufTy).Contents (Elt Ideal)) (x5 : (⟨S1, .f32⟩ : BufTy).Contents (Elt Ideal))

/-- The word `0x3F800000` is the number one. -/
theorem one_f32 : Ideal.ofBits .f32 0x3F800000#32 = 1 := IdealRules.sign_bit.ideal_onePat .f32

/-- The reference gathers the source rows twice, from the same indices wrapped the same way: the two gathers are
    one array. -/
theorem src_twice : val_main_v42 (F := Ideal) x0 x1 = val_main_v10 (F := Ideal) x0 x1 := by
  unfold val_main_v42 val_main_v10 val_main_v41 val_main_v9 val_main_v40 val_main_v8 val_main_v37 val_main_v5
    val_main_v39 val_main_v7 val_main_v36 val_main_v4 val_main_v38 val_main_v6 val_main_c_4 val_main_c val_main_c_5
    val_main_c_0
  rfl

/-- Column `k` below 128 of the joined rows is the source row's column `k` … -/
theorem cat_lower (e : Fin 800000) (k : Fin 128) :
    val_main_v18 (F := Ideal) x0 x1 (ix2 e (Cert.Spec.lower k)) = val_main_v10 (F := Ideal) x0 x1 (ix2 e k) := by
  unfold val_main_v18
  generalize val_main_v10 (F := Ideal) x0 x1 = xs
  generalize val_main_v17 (F := Ideal) x0 x1 = xt
  exact concatenate_pair_apply_left 1 xs xt concatenates_S800000x128_S800000x128_S800000x256_d1 _ rfl _ (fun b => by
    match b with
    | ⟨0, _⟩ => rfl
    | ⟨1, _⟩ => rfl)

/-- … and column `128 + k` is the target row's column `k`. -/
theorem cat_upper (e : Fin 800000) (k : Fin 128) :
    val_main_v18 (F := Ideal) x0 x1 (ix2 e (Cert.Spec.upper k)) = val_main_v17 (F := Ideal) x0 x1 (ix2 e k) := by
  unfold val_main_v18
  generalize val_main_v10 (F := Ideal) x0 x1 = xs
  generalize val_main_v17 (F := Ideal) x0 x1 = xt
  exact concatenate_pair_apply_right 1 xs xt concatenates_S800000x128_S800000x128_S800000x256_d1 _ rfl rfl _
    (fun b hb => by
      match b with
      | ⟨0, _⟩ => rfl
      | ⟨1, _⟩ => exact absurd rfl hb)
    (by show k.val + 128 = 128 + k.val; omega)

/-- The hidden unit: the 256-term contraction of the joined rows with the first layer's weights is the source row
    against the weights' first 128 rows plus the target row against their last 128; then the bias and the relu. -/
theorem hidden_read (e : Fin 800000) (j : Fin 128) :
    val_main_v23 (F := Ideal) x0 x1 x2 x3 (ix2 e j)
      = Cert.Spec.hiddenHalves (val_main_v10 (F := Ideal) x0 x1) (val_main_v17 (F := Ideal) x0 x1)
          (Cert.Spec.w1Lower x2) (Cert.Spec.w1Upper x2) x3 e j := by
  have el : ∀ k : Fin 256, lidx_main_v19 (ix2 e j) k = ix2 e k := fun k =>
    funext fun a => Fin.ext (by match a with | ⟨0, _⟩ => rfl | ⟨1, _⟩ => rfl)
  have er : ∀ k : Fin 256, ridx_main_v19 (ix2 e j) k = ix2 k j := fun k =>
    funext fun a => Fin.ext (by match a with | ⟨0, _⟩ => rfl | ⟨1, _⟩ => rfl)
  have e20 : idx_main_v20 (idx_main_v21 (ix2 e j)) = ix1 j := funext fun a => Fin.ext (by match a with | ⟨0, _⟩ => rfl)
  rw [val_main_v23_apply, val_main_v22_apply, val_main_v19_apply, val_main_call0_v0_apply, val_main_call0_cst_apply,
    val_main_v21_apply, val_main_v20_apply, e20]
  simp only [el, er]
  rw [Cert.Spec.sum_lower_upper]
  simp only [cat_lower, cat_upper]
  rfl

/-- The gate: the second layer on the hidden vector, then `1 / (1 + exp (−z))`, the logistic function spelt out. -/
theorem gate_read (e : Fin 800000) :
    val_main_v33 (F := Ideal) x0 x1 x2 x3 x4 x5 (ix2 e (0 : Fin 1))
      = Cert.Spec.gateHalves (val_main_v10 (F := Ideal) x0 x1) (val_main_v17 (F := Ideal) x0 x1)
          (Cert.Spec.w1Lower x2) (Cert.Spec.w1Upper x2) x3 x4 x5 e := by
  have el : ∀ k : Fin 128, lidx_main_v24 (ix2 e (0 : Fin 1)) k = ix2 e k := fun k =>
    funext fun a => Fin.ext (by match a with | ⟨0, _⟩ => rfl | ⟨1, _⟩ => rfl)
  have er : ∀ k : Fin 128, ridx_main_v24 (ix2 e (0 : Fin 1)) k = ix2 k (0 : Fin 1) := fun k =>
    funext fun a => Fin.ext (by match a with | ⟨0, _⟩ => rfl | ⟨1, _⟩ => rfl)
  have e25 : idx_main_v25 (idx_main_v26 (ix2 e (0 : Fin 1))) = ix1 (0 : Fin 1) :=
    funext fun a => Fin.ext (by match a with | ⟨0, _⟩ => rfl)
  rw [val_main_v33_apply, val_main_v32_apply, val_main_cst_3_apply, val_main_v31_apply, val_main_v30_apply,
    val_main_cst_apply, val_main_v29_apply, val_main_v28_apply, val_main_v27_apply, val_main_v24_apply,
    val_main_v26_apply, val_main_v25_apply, e25]
  simp only [el, er, hidden_read, Ideal.hostDivf_def, Ideal.hostUnary_exp_def, Ideal.hostNegf_def, Ideal.negf_def,
    Ideal.addf_def, Ideal.ofBits_def, one_f32]
  rfl

/-- The reference's message along every edge is the specification's, of the gathered source and target rows. -/
theorem ref_edge :
    val_main_v44 (F := Ideal) x0 x1 x2 x3 x4 x5
      = Cert.Spec.edgeMsg (val_main_v10 (F := Ideal) x0 x1) (val_main_v17 (F := Ideal) x0 x1) x2 x3 x4 x5 := by
  funext i
  obtain ⟨e, c, rfl⟩ : ∃ (e : Fin 800000) (c : Fin 128), i = ix2 e c := ⟨i 0, i 1, eq_ix2 i⟩
  have e43 : idx_main_v43 (ix2 e c) = ix2 e (0 : Fin 1) :=
    funext fun a => Fin.ext (by match a with | ⟨0, _⟩ => rfl | ⟨1, _⟩ => rfl)
  have e35 : idx_main_v35 (ix2 e (0 : Fin 1)) = ix1 e := funext fun a => Fin.ext (by match a with | ⟨0, _⟩ => rfl)
  have e34 : idx_main_v34 (ix1 e) = ix2 e (0 : Fin 1) :=
    funext fun a => Fin.ext (by
      match a with
      | ⟨0, _⟩ => show e.val / 1 = e.val; omega
      | ⟨1, _⟩ => rfl)
  rw [val_main_v44_apply, val_main_v43_apply, e43, val_main_v35_apply, e35, val_main_v34_apply, e34, gate_read,
    src_twice]
  rfl

end Edge

end Cert.ReferenceIdeal.RefRead

end
-- ==== Proof.lean ====
/-
  A graph layer: every edge carries a gated copy of its source node's features into its target node, and every
  node is then layer-normalised.

  The kernel computes the gate in one pipelined region over blocks of 10000 edges — the hidden layer as the
  source row against the first 128 rows of the first layer's weights plus the target row against the last 128,
  a bias, a relu, the second layer, the logistic function — scatter-adds the messages on the host, and
  normalises `x + agg` in a second pipelined region over blocks of 5000 nodes. The reference joins the source
  and target rows into one 256-long row and contracts it with the whole weight matrix, spells the logistic
  function as `1 / (1 + exp (−z))`, and normalises all 50000 rows at once.

  Over the extended reals the two are one function: a 256-long sum is the sum of its two 128-long halves (true
  in any commutative monoid, so the inputs' finiteness is never used), the logistic function IS that
  quotient, the changes of float format are the identity, and a row of a block is a row of the array. Both
  programs apply the same gathers and the same scatter-add to equal operands, so those are never opened.
  `result` below is the common value; `kernel_result` reads the kernel's result array as it (region by region,
  through the host operations between them), `reference_result` the reference's.
-/
import proofs.«124537_j18863496364647_1_alg».proof.Defs
import proofs.«124537_j18863496364647_1_alg».proof.Proof.Gen.Kernel
import proofs.«124537_j18863496364647_1_alg».proof.Proof.Gen.Kernel.Skeleton
import proofs.«124537_j18863496364647_1_alg».proof.Proof.Gen.Kernel.Launch
import proofs.«124537_j18863496364647_1_alg».proof.Proof.Gen.Kernel.Points
import proofs.«124537_j18863496364647_1_alg».proof.Proof.Gen.Kernel.Frame
import proofs.«124537_j18863496364647_1_alg».proof.Proof.Gen.KernelIdeal
import proofs.«124537_j18863496364647_1_alg».proof.Proof.Gen.KernelIdeal.Skeleton
import proofs.«124537_j18863496364647_1_alg».proof.Proof.Gen.KernelIdeal.Launch
import proofs.«124537_j18863496364647_1_alg».proof.Proof.Gen.KernelIdeal.Points
import proofs.«124537_j18863496364647_1_alg».proof.Proof.Gen.KernelIdeal.Frame
import proofs.«124537_j18863496364647_1_alg».proof.Proof.Gen.ReferenceIdeal
import proofs.«124537_j18863496364647_1_alg».proof.Proof.Gen.ReferenceIdeal.Run
import proofs.«124537_j18863496364647_1_alg».proof.Proof.Gen.ReferenceIdeal.Read
import proofs.«124537_j18863496364647_1_alg».proof.Proof.Gen.Pre_finite_inputs
import proofs.«124537_j18863496364647_1_alg».proof.Proof.KernelRun
import proofs.«124537_j18863496364647_1_alg».proof.Proof.HostReads
import proofs.«124537_j18863496364647_1_alg».proof.Proof.Shared
import proofs.«124537_j18863496364647_1_alg».proof.Proof.NormBlocks
import proofs.«124537_j18863496364647_1_alg».proof.Proof.EdgeBlocks
import proofs.«124537_j18863496364647_1_alg».proof.Proof.RefRead
import Idealize.ShloMosaic.Adequacy
import Idealize.ShloMosaic.Init

noncomputable section

open Idealize.ShloMosaic Idealize.ShloMosaic.TcCoe Idealize.SL.Sem

namespace Cert.Proof

open Cert.ReferenceIdeal.Read

/-- The common result: the layer norm of `x` plus the scatter-added gated messages. -/
def result (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S256x128, .f32⟩ : BufTy).Contents (Elt Ideal)) (x3 : (⟨Cert.ReferenceIdeal.S128, .f32⟩ : BufTy).Contents (Elt Ideal))
    (x4 : (⟨Cert.ReferenceIdeal.S128x1, .f32⟩ : BufTy).Contents (Elt Ideal)) (x5 : (⟨Cert.ReferenceIdeal.S1, .f32⟩ : BufTy).Contents (Elt Ideal))
    (x6 x7 : (⟨Cert.ReferenceIdeal.S128, .f32⟩ : BufTy).Contents (Elt Ideal)) : (⟨Cert.ReferenceIdeal.S50000x128, .f32⟩ : BufTy).Contents (Elt Ideal) :=
  Cert.Spec.layerNorm x0
    (Host.scatterAdd (F := Ideal) (φ := .f32) Cert.ReferenceIdeal.scatter_S50000x128_S800000x1_S800000x128_1_0_0_1 (val_main_v45 (F := Ideal)) (val_main_v46 (F := Ideal) x1)
      (Cert.Spec.edgeMsg (val_main_v10 (F := Ideal) x0 x1) (val_main_v17 (F := Ideal) x0 x1) x2 x3 x4 x5)) x6 x7

/-- The reference's last value is the common result: its node stage is the layer norm of `x` plus what its
    scatter-add wrote, and what it scatter-adds are the gated messages. -/
theorem reference_result (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S256x128, .f32⟩ : BufTy).Contents (Elt Ideal)) (x3 : (⟨Cert.ReferenceIdeal.S128, .f32⟩ : BufTy).Contents (Elt Ideal))
    (x4 : (⟨Cert.ReferenceIdeal.S128x1, .f32⟩ : BufTy).Contents (Elt Ideal)) (x5 : (⟨Cert.ReferenceIdeal.S1, .f32⟩ : BufTy).Contents (Elt Ideal))
    (x6 x7 : (⟨Cert.ReferenceIdeal.S128, .f32⟩ : BufTy).Contents (Elt Ideal)) :
    val_main_v72 (F := Ideal) x0 x1 x2 x3 x4 x5 x6 x7 = result x0 x1 x2 x3 x4 x5 x6 x7 := by
  rw [Cert.ReferenceIdeal.RefRead.ref_norm]
  unfold val_main_v47
  rw [Cert.ReferenceIdeal.RefRead.ref_edge]
  rfl

open Cert.KernelIdeal Cert.KernelIdeal.Gen Cert.KernelIdeal.Whole in
/-- The kernel's result array after the run is the common result of the launch contents: the normalisation
    region leaves the layer norm of what it finds, which is `x` and the host's scatter-add of what the
    edge-gate region left, which are the gated messages of the gathered rows and the two weight halves. -/
theorem kernel_result (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    W4 m ρ c (Proc.devRef .tc main_v24)
      = result (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) := by
  rw [result_eq, Cert.KernelIdeal.NormBlocks.norm_array, entry1_x, entry1_agg, entry1_gamma, entry1_beta, Cert.KernelIdeal.EdgeBlocks.edge_array,
    entry0_src, entry0_tgt, entry0_wa, entry0_wb, entry0_b1, entry0_w2, entry0_b2,
    Cert.Shared.src_rows, Cert.Shared.tgt_rows, Cert.Shared.summed, Cert.Shared.first_half, Cert.Shared.second_half]
  rfl

/-- The word-level kernel runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The idealized reference runs and keeps its arguments: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the common result. -/
theorem algebraic : Cert.algebraic_KernelIdeal_ReferenceIdeal := by
  intro m ρ m' ρ' _ hagree
  refine ⟨fun c => result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (kernel_result m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    rw [val_main_v72_eq, reference_result, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
